-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x128 : Shape := ⟨3, ![8, 32768, 128]⟩
abbrev S8x128x128 : Shape := ⟨3, ![8, 128, 128]⟩
abbrev S8x128 : Shape := ⟨2, ![8, 128]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S8x32768x128 .f32) (main_arg1 : FVec F S8x128x128 .f32) (main_arg2 : FVec F S8x128 .f32) : IVec S_ 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  main_v13
-- ==== Kernel.lean ====
abbrev S8x32768x128 : Shape := ⟨3, ![8, 32768, 128]⟩
abbrev S8x128x128 : Shape := ⟨3, ![8, 128, 128]⟩
abbrev S8x128 : Shape := ⟨2, ![8, 128]⟩
abbrev S8x1x128 : Shape := ⟨3, ![8, 1, 128]⟩
abbrev S1x8192x128 : Shape := ⟨3, ![1, 8192, 128]⟩
abbrev S1x128x128 : Shape := ⟨3, ![1, 128, 128]⟩
abbrev S1x1x128 : Shape := ⟨3, ![1, 1, 128]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S8x32768x128, .f32⟩
  | .hbm, ⟨1, _⟩ => ⟨S8x128x128, .f32⟩
  | .hbm, ⟨2, _⟩ => ⟨S8x128, .f32⟩
  | .hbm, ⟨3, _⟩ => ⟨S8x1x128, .f32⟩
  | .hbm, ⟨4, _⟩ => ⟨S8x32768x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x8192x128, .f32⟩
  | .local _ .vmem, ⟨7, _⟩ => ⟨S1x8192x128, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x128_S8x1x128_0_2 : S8x128.BroadcastsInDim S8x1x128 (![0, 2] : Fin 2 → Fin S8x1x128.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  bitsLt_bf16_f32 : FTy.bits .bf16 < FTy.bits .f32
  shapeCasts_S128_S1x128 : S128.ShapeCasts S1x128
  broadcasts_S1x128_S8192x128 : S1x128.Broadcasts S8192x128
  shapeCasts_S8192x128_S1x8192x128 : S8192x128.ShapeCasts S1x8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S8x32768x128.size a
  hwx0_0 : ∀ i : grid0.Coords, EltTy.bits .f32 = 32 ∨ (Rect.block (s := S8x32768x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S8x32768x128.size a
  hwx0_3 : ∀ i : grid0.Coords, EltTy.bits .f32 = 32 ∨ (Rect.block (s := S8x32768x128) S1x8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32768x128 : Shape := ⟨3, ![8, 32768, 128]⟩
abbrev S8x128x128 : Shape := ⟨3, ![8, 128, 128]⟩
abbrev S8x128 : Shape := ⟨2, ![8, 128]⟩
abbrev S8x1x128 : Shape := ⟨3, ![8, 1, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S8x128x128, .f32⟩
  | .hbm, ⟨2, _⟩ => ⟨S8x128, .f32⟩
  | .hbm, ⟨3, _⟩ => ⟨S8x32768x128, .f32⟩
  | .hbm, ⟨4, _⟩ => ⟨S8x1x128, .f32⟩
  | .hbm, ⟨5, _⟩ => ⟨S8x32768x128, .f32⟩
  | .hbm, ⟨6, _⟩ => ⟨S8x32768x128, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x128_S8x1x128_0_2 : S8x128.BroadcastsInDim S8x1x128 (![0, 2] : Fin 2 → Fin S8x1x128.rank)
  bcast_S8x1x128_S8x32768x128_0_1_2 : S8x1x128.BroadcastsInDim S8x32768x128 (![0, 1, 2] : Fin 3 → Fin S8x32768x128.rank)
  dot_S8x32768x128_S8x128x128_S8x32768x128_2_1_1_2_0_0_wf : DotDims.WF S8x32768x128 S8x128x128 S8x32768x128 [2] [1] [1] [2] [0] [0]

variable [Facts₀]

def dot_S8x32768x128_S8x128x128_S8x32768x128_2_1_1_2_0_0 : DotDims S8x32768x128 S8x128x128 S8x32768x128 where
  lhsContracting := [2]
  rhsContracting := [1]
  lhsNonContracting := [1]
  rhsNonContracting := [2]
  lhsBatch := [0]
  rhsBatch := [0]
  wf := dot_S8x32768x128_S8x128x128_S8x32768x128_2_1_1_2_0_0_wf

class Facts : Prop extends Facts₀ where

variable [Facts]
-- ==== Proof.Spec.lean ====
/-
  The function both programs compute, as one formula over the argument arrays.

  There are 8 tasks. Task `t` has a data matrix `x[t]` of 32768 rows and 128 columns, a weight matrix `w[t]`
  of 128 rows and 128 columns and a bias row `b[t]` of 128 entries. The result's entry at task `t`, row `r`,
  column `o` is the inner product of row `r` of `x[t]` with column `o` of `w[t]`, plus `b[t][o]`:

      out[t, r, o] = (∑ k < 128, x[t, r, k] · w[t, k, o]) + b[t, o]

  on the extended reals. The sum is one finite sum over the contracted axis in its natural order and the bias is
  added once, to the finished sum; neither program regroups the sum or distributes a factor over it, so nothing
  below needs the inputs to be finite.
-/
import Idealize.ShloMosaic.PureOps.Ideal
import Idealize.ShloMosaic.Lib.ValueIdx

noncomputable section

namespace Cert.TaskAffine

open Idealize.ShloMosaic Idealize.ShloMosaic.ValueIdx

/-- The shapes of the data, the weights, the biases (the result has the data's shape). -/
abbrev SData : Shape := ⟨3, ![8, 32768, 128]⟩
abbrev SWeight : Shape := ⟨3, ![8, 128, 128]⟩
abbrev SBias : Shape := ⟨2, ![8, 128]⟩

/-- Entry `(t, r, k)` of the data: the factor that row `r` of task `t` contributes at contraction position `k`. -/
abbrev dataAt (i : SData.Idx) (k : Fin 128) : SData.Idx := ix3 (i 0 : Fin 8) (i 1 : Fin 32768) k
/-- Entry `(t, k, o)` of the weights: the factor that column `o` of task `t` contributes at contraction position `k`. -/
abbrev weightAt (i : SData.Idx) (k : Fin 128) : SWeight.Idx := ix3 (i 0 : Fin 8) k (i 2 : Fin 128)
/-- Entry `(t, o)` of the biases. -/
abbrev biasAt (i : SData.Idx) : SBias.Idx := ix2 (i 0 : Fin 8) (i 2 : Fin 128)

/-- The per-task affine map, entry by entry: `out[t, r, o] = (∑ k, x[t, r, k] · w[t, k, o]) + b[t, o]`. -/
def affine (x : SData.Idx → EReal) (w : SWeight.Idx → EReal) (b : SBias.Idx → EReal) : SData.Idx → EReal :=
  fun i => (∑ k : Fin 128, x (dataAt i k) * w (weightAt i k)) + b (biasAt i)

end Cert.TaskAffine

end
-- ==== Proof.RefValue.lean ====
/-
  The reference computes `TaskAffine.affine`.

  Its program is four array operations: the batched contraction of the data with the weights (task axis shared,
  the data's last axis against the weights' middle axis), the bias given a unit row axis, that row repeated over
  the 32768 rows, and the entrywise sum of the two. Read at one entry `(t, r, o)`: the contraction is
  `∑ k, x[t, r, k] · w[t, k, o]`; the two repetitions read the bias at `(t, 0, o)` and then at `(t, o)`; the last
  operation adds them. That is `affine` at `(t, r, o)`, term for term.
-/
import proofs.«127060_j26414048870602_2_alg».proof.Proof.Gen.ReferenceIdeal.Read
import proofs.«127060_j26414048870602_2_alg».proof.Proof.Spec

noncomputable section

namespace Cert.TaskAffine.Reference

open Idealize.ShloMosaic Idealize.ShloMosaic.ValueIdx Cert.ReferenceIdeal Cert.ReferenceIdeal.Read Cert.TaskAffine

/-- The contraction's left factor at position `k` is the data's entry `(t, r, k)`. -/
theorem left_factor (i : SData.Idx) (k : Fin 128) : lidx_main_v0 i k = dataAt i k :=
  funext fun a => Fin.ext (by match a with | ⟨0, _⟩ => rfl | ⟨1, _⟩ => rfl | ⟨2, _⟩ => rfl)

/-- The contraction's right factor at position `k` is the weights' entry `(t, k, o)`. -/
theorem right_factor (i : SData.Idx) (k : Fin 128) : ridx_main_v0 i k = weightAt i k :=
  funext fun a => Fin.ext (by match a with | ⟨0, _⟩ => rfl | ⟨1, _⟩ => rfl | ⟨2, _⟩ => rfl)

/-- The bias repeated over the rows is read, at `(t, r, o)`, at its entry `(t, o)`. -/
theorem bias_entry (i : SData.Idx) : idx_main_v1 (idx_main_v2 i) = biasAt i :=
  funext fun a => Fin.ext (by match a with | ⟨0, _⟩ => rfl | ⟨1, _⟩ => rfl)

/-- The reference's result, as an array on the extended reals, is `affine` of its three arguments. -/
theorem value_eq (x : SData.Idx → EReal) (w : SWeight.Idx → EReal) (b : SBias.Idx → EReal) :
    val_main_v3 (F := Ideal) x w b = affine x w b := by
  funext i
  rw [val_main_v3_apply, val_main_v0_apply, val_main_v2_apply, val_main_v1_apply]
  simp only [left_factor, right_factor, bias_entry]
  rfl

end Cert.TaskAffine.Reference

end
-- ==== Proof.Body.lean ====
/-
  What one run of the kernel body leaves in its output block, entry by entry.

  The body works on one block: 8192 rows of one task's data (as a `1 × 8192 × 128` array), that task's whole
  weight matrix (`1 × 128 × 128`) and its bias row (`1 × 1 × 128`). It drops the unit task axis of the data and
  of the weights, multiplies the two matrices into a zero accumulator, turns the bias row into a `1 × 128` matrix,
  repeats it over the 8192 rows, adds, and puts the unit axis back. The two changes of float format on the way
  into the product change nothing on the extended reals. So the entry at `(0, r, o)` is

      (∑ k < 128, data[0, r, k] · weight[0, k, o]) + bias[0, 0, o].

  The only step that is not a re-indexing is the product: a matrix product into a zero accumulator is, at each
  entry, the plain sum of the products over the contracted axis, here the data's columns against the weights' rows.
-/
import proofs.«127060_j26414048870602_2_alg».proof.Proof.Gen.KernelIdeal.Skeleton
import proofs.«127060_j26414048870602_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.TaskAffine.Body

open Idealize.ShloMosaic Idealize.ShloMosaic.ValueIdx Cert.KernelIdeal Cert.KernelIdeal.Gen Cert.TaskAffine

/-! ## The matrix product's operand indices: rows of the left factor, columns of the right -/

/-- The left factor is read in the result's row. -/
theorem left_row (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- The left factor's column is the contraction position. -/
theorem left_col (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q

/-- The right factor's row is the contraction position. -/
theorem right_row (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q

/-- The right factor is read in the result's column. -/
theorem right_col (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product of an `8192 × 128` matrix with a `128 × 128` matrix into a zero accumulator, at `(r, o)`: row `r` of
    the left factor against column `o` of the right, summed over the 128 contraction positions. -/
theorem product_apply (a : FVec Ideal S8192x128 .bf16) (b : FVec Ideal S128x128 .bf16) (r : Fin 8192) (o : Fin 128) :
    matmul dot_S8192x128_S128x128_S8192x128_1_0_0_1_n_n none a b (constant (F := Ideal) S8192x128 .f32 0x00000000#32) (ix2 r o)
      = ∑ k : Fin 128, a (ix2 r k) * b (ix2 k o) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r o) ((contrEquiv1 dot_S8192x128_S128x128_S8192x128_1_0_0_1_n_n 128 rfl rfl).symm k) = ix2 r k :=
    funext fun c => Fin.ext (by
      match c with
      | ⟨0, _⟩ => exact left_row _ _
      | ⟨1, _⟩ => exact (left_col _ _).trans hk)
  have er : dot_S8192x128_S128x128_S8192x128_1_0_0_1_n_n.rhsIdx (ix2 r o) ((contrEquiv1 dot_S8192x128_S128x128_S8192x128_1_0_0_1_n_n 128 rfl rfl).symm k) = ix2 k o :=
    funext fun c => Fin.ext (by
      match c with
      | ⟨0, _⟩ => exact (right_row _ _).trans hk
      | ⟨1, _⟩ => exact right_col _ _)
  rw [el, er]

/-! ## The body's stored value at one entry -/

/-- A `1 × 1 × 128` array flattened to 128 entries reads, at `o`, its entry `(0, 0, o)`. -/
theorem flatten_row_apply (v : Vec Ideal S1x1x128 .f32) (h : S1x1x128.ShapeCasts S128) (o : Fin 128) :
    shapeCast S128 v h (ix1 o) = v (ix3 (0 : Fin 1) (0 : Fin 1) o) :=
  shapeCast_apply v h _ _ (by
    rw [Shape.rowMajor_val_three, Shape.rowMajor_val_one]
    show (0 * 1 + 0) * 128 + o.val = o.val
    omega)

/-- THE BODY'S RESULT at `(u, r, o)` (`u` the unit task coordinate of the block): row `r` of the data block against
    column `o` of the weight block, plus the bias block's entry `o`. -/
theorem stored_apply (data : Vec Ideal S1x8192x128 .f32) (weight : Vec Ideal S1x128x128 .f32) (bias : Vec Ideal S1x1x128 .f32)
    (u : Fin 1) (r : Fin 8192) (o : Fin 128) :
    k0_pay1 (F := Ideal) data weight bias (ix3 u r o)
      = (∑ k : Fin 128, data (ix3 (0 : Fin 1) r k) * weight (ix3 (0 : Fin 1) k o)) + bias (ix3 (0 : Fin 1) (0 : Fin 1) o) := by
  unfold k0_pay1
  refine (shapeCast_ab_1ab_apply _ _ u r o).trans ?_
  refine (addf_apply _ _ _).trans ?_
  refine congrArg₂ (· + ·) ?_ ?_
  · refine (product_apply _ _ r o).trans ?_
    refine Finset.sum_congr rfl fun k _ => ?_
    exact congrArg₂ (· * ·) (shapeCast_1ab_ab_apply data _ r k) (shapeCast_1ab_ab_apply weight _ k o)
  · refine (broadcastTo_1b_ab_apply _ _ r o).trans ?_
    refine (shapeCast_a_1a_apply _ _ (0 : Fin 1) o).trans ?_
    exact flatten_row_apply bias _ o

/-- THE BODY'S RESULT IS `affine` WHERE THE BLOCKS COME FROM THE ARRAYS: if row `r` of the data block is the row of the
    data array that the array entry `i` contracts, column `o` of the weight block the column of the weight array that `i`
    contracts, and the bias block's entry `o` the bias entry of `i`, then the body's result at `(u, r, o)` is `affine` of
    the three arrays at `i`. -/
theorem stored_eq_affine (x : SData.Idx → EReal) (w : SWeight.Idx → EReal) (b : SBias.Idx → EReal)
    (data : Vec Ideal S1x8192x128 .f32) (weight : Vec Ideal S1x128x128 .f32) (bias : Vec Ideal S1x1x128 .f32)
    (i : SData.Idx) (u : Fin 1) (r : Fin 8192) (o : Fin 128)
    (hdata : ∀ k : Fin 128, data (ix3 (0 : Fin 1) r k) = x (dataAt i k))
    (hweight : ∀ k : Fin 128, weight (ix3 (0 : Fin 1) k o) = w (weightAt i k))
    (hbias : bias (ix3 (0 : Fin 1) (0 : Fin 1) o) = b (biasAt i)) :
    k0_pay1 (F := Ideal) data weight bias (ix3 u r o) = affine x w b i := by
  refine (stored_apply data weight bias u r o).trans ?_
  unfold affine
  rw [hbias]
  exact congrArg (· + b (biasAt i)) (Finset.sum_congr rfl fun k _ => by rw [hdata k, hweight k])

end Cert.TaskAffine.Body

end
-- ==== Proof.KernelValue.lean ====
/-
  The kernel's result array is `TaskAffine.affine` of its three arguments.

  The grid has 8 × 4 points. Point `(t, j)` works on task `t` and on rows `8192·j … 8192·j + 8191` of that task:
  its data block and its output block are block `(t, j, 0)` of their arrays (extents `1 × 8192 × 128`), its weight block
  is block `(t, 0, 0)` (`1 × 128 × 128`: the whole weight matrix of the task) and its bias block is block `(t, 0, 0)` of
  the bias array with a unit row axis put in (`1 × 1 × 128`: the task's bias row). An entry of a block at inner
  coordinates `y` is the array's entry at (block index × block extent + `y`) on every axis.

  So at a point the body's result (Body.lean: row against column, plus bias) at inner coordinates `(0, r, o)` is the
  sum over `k` of `x[t, 8192·j + r, k] · w[t, k, o]`, plus `b[t, o]`: the value of `affine` at the array entry
  `(t, 8192·j + r, o)`, which is where the output block puts it. The 32 output blocks tile the result array — entry
  `(t, n, o)` lies in the block of point `(t, n / 8192)` — and every point writes its block back, so the array ends
  holding `affine` everywhere.
-/
import proofs.«127060_j26414048870602_2_alg».proof.Proof.Gen.KernelIdeal.Value
import proofs.«127060_j26414048870602_2_alg».proof.Proof.Body
import Idealize.ShloMosaic.Lib.StableHlo.Run

set_option maxRecDepth 16384

noncomputable section

namespace Cert.TaskAffine.Kernel

open Idealize.ShloMosaic Idealize.ShloMosaic.TcCoe Idealize.SL.Sem Idealize.ShloMosaic.ValueIdx
open Idealize.ShloMosaic.Pipeline (Dat)
open Cert.KernelIdeal Cert.KernelIdeal.Gen Cert.TaskAffine

variable (m : (ℓ : Loc nD τ sig) → Buf (Elt Ideal) ℓ) (ρ : Dev nD → PrngReg)

/-! ## Which block of each array a grid point works on -/

/-- The block indices, decided over the 32 points: the data block moves with the output block; the weight block
    and the bias block follow the output block's task and stay at 0 on their other axes; the output block's task
    is below 8, its row tile below 4, its column tile 0. -/
theorem block_indices : ∀ t : Fin cfg0.N,
      win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 3 ∧ win0_3.index t (2 : Fin 3) = 0 :=
  (by decide +kernel : ∀ t : Fin grid0.N, _)

/-- Every (task, row tile) pair is some point's output block. -/
theorem block_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-! ## Each input block as entries of its array -/

/-- The data block's entry at inner coordinates `y` is the data array's entry at block index × extent + `y`. -/
theorem data_block (c : Dev nD) (t : Fin cfg0.N) (y : S1x8192x128.Idx) (i : S8x32768x128.Idx)
    (h0 : win0_0.index t (0 : Fin 3) * 1 + 1 * (y 0).val = (i 0).val)
    (h1 : win0_0.index t (1 : Fin 3) * 8192 + 1 * (y 1).val = (i 1).val)
    (h2 : win0_0.index t (2 : Fin 3) * 128 + 1 * (y 2).val = (i 2).val) :
    (iblk m c 0 t : Vec Ideal S1x8192x128 .f32) y = (m ((c : Thread nD τ).loc main_arg0) : S8x32768x128.Idx → EReal) i := by
  unfold iblk
  rw [View.read_apply]
  show V m c main_arg0 _ = _
  refine (congrFun (V_main_arg0 m c) _).trans (congrArg _ (funext fun a => Fin.ext ?_))
  match a with
  | ⟨0, _⟩ => exact h0
  | ⟨1, _⟩ => exact h1
  | ⟨2, _⟩ => exact h2

/-- The weight block's entry at inner coordinates `y` is the weight array's entry at block index × extent + `y`. -/
theorem weight_block (c : Dev nD) (t : Fin cfg0.N) (y : S1x128x128.Idx) (i : S8x128x128.Idx)
    (h0 : win0_1.index t (0 : Fin 3) * 1 + 1 * (y 0).val = (i 0).val)
    (h1 : win0_1.index t (1 : Fin 3) * 128 + 1 * (y 1).val = (i 1).val)
    (h2 : win0_1.index t (2 : Fin 3) * 128 + 1 * (y 2).val = (i 2).val) :
    (iblk m c 1 t : Vec Ideal S1x128x128 .f32) y = (m ((c : Thread nD τ).loc main_arg1) : S8x128x128.Idx → EReal) i := by
  unfold iblk
  rw [View.read_apply]
  show V m c main_arg1 _ = _
  refine (congrFun (V_main_arg1 m c) _).trans (congrArg _ (funext fun a => Fin.ext ?_))
  match a with
  | ⟨0, _⟩ => exact h0
  | ⟨1, _⟩ => exact h1
  | ⟨2, _⟩ => exact h2

/-- The array the bias window stages is written before the launch: the bias argument with a unit row axis put in. -/
theorem bias_rows (c : Dev nD) :
    (V m c main_v0 : S8x1x128.Idx → EReal)
      = broadcastInDim S8x1x128 ![0, 2] bcast_S8x128_S8x1x128_0_2 (m ((c : Thread nD τ).loc main_arg2)) := by
  dsimp only [Gen.V, Gen.hostOps0]
  after_results

/-- The bias block's entry at inner coordinates `y` is the bias argument's entry at the block's task and at `y`'s column. -/
theorem bias_block (c : Dev nD) (t : Fin cfg0.N) (y : S1x1x128.Idx) (i : S8x128.Idx)
    (h0 : win0_2.index t (0 : Fin 3) * 1 + 1 * (y 0).val = (i 0).val)
    (h2 : win0_2.index t (2 : Fin 3) * 128 + 1 * (y 2).val = (i 1).val) :
    (iblk m c 2 t : Vec Ideal S1x1x128 .f32) y = (m ((c : Thread nD τ).loc main_arg2) : S8x128.Idx → EReal) i := by
  unfold iblk
  rw [View.read_apply]
  show V m c main_v0 _ = _
  refine (congrFun (bias_rows m c) _).trans ?_
  refine broadcastInDim_apply _ bcast_S8x128_S8x1x128_0_2 _ _ i fun a => ?_
  match a with
  | ⟨0, _⟩ =>
    show (i 0).val = if (8 : Nat) = 1 then 0 else win0_2.index t (0 : Fin 3) * 1 + 1 * (y 0).val
    rw [if_neg (by decide)]; exact h0.symm
  | ⟨1, _⟩ =>
    show (i 1).val = if (128 : Nat) = 1 then 0 else win0_2.index t (2 : Fin 3) * 128 + 1 * (y 2).val
    rw [if_neg (by decide)]; exact h2.symm

/-! ## What a point writes back is its block of `affine` -/

theorem zero_offsets : (![0, 0, 0] : Fin 3 → Nat) = fun _ => 0 := funext fun a => by fin_cases a <;> rfl

/-- WHAT POINT `t` WRITES BACK is block `t` of `affine` of the three argument arrays. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1x8192x128) zero_offsets, View.ld_unit_zero (S := S1x128x128) zero_offsets,
    View.ld_unit_zero (S := S1x1x128) zero_offsets]
  obtain ⟨d0, d1, d2, w0, w1, w2, b0, b1, b2, o0, o1, o2⟩ := block_indices t
  funext j
  show k0_pay1 (F := Ideal) (iblk m c 0 t) (iblk m c 1 t) (iblk m c 2 t) j
    = affine (m ((c : Thread nD τ).loc main_arg0)) (m ((c : Thread nD τ).loc main_arg1)) (m ((c : Thread nD τ).loc main_arg2))
        (((cfg0.win 3).blk t).view.emb j)
  have hu : (j 0).val < 1 := (j 0).isLt
  have hj : (j : S1x8192x128.Idx) = ix3 (j 0 : Fin 1) (j 1 : Fin 8192) (j 2 : Fin 128) := eq_ix3 (j : S1x8192x128.Idx)
  refine (congrArg (k0_pay1 (F := Ideal) (iblk m c 0 t) (iblk m c 1 t) (iblk m c 2 t)) hj).trans ?_
  refine Body.stored_eq_affine (m ((c : Thread nD τ).loc main_arg0)) (m ((c : Thread nD τ).loc main_arg1)) (m ((c : Thread nD τ).loc main_arg2))
    (iblk m c 0 t) (iblk m c 1 t) (iblk m c 2 t) (((cfg0.win 3).blk t).view.emb j) (j 0) (j 1) (j 2) ?_ ?_ ?_
  · intro k
    refine data_block m c t (ix3 (0 : Fin 1) (j 1 : Fin 8192) k) (dataAt (((cfg0.win 3).blk t).view.emb j) k) ?_ ?_ ?_
    · show win0_0.index t (0 : Fin 3) * 1 + 1 * 0 = win0_3.index t (0 : Fin 3) * 1 + 1 * (j 0).val
      omega
    · show win0_0.index t (1 : Fin 3) * 8192 + 1 * (j 1).val = win0_3.index t (1 : Fin 3) * 8192 + 1 * (j 1).val
      omega
    · show win0_0.index t (2 : Fin 3) * 128 + 1 * k.val = k.val
      omega
  · intro k
    refine weight_block m c t (ix3 (0 : Fin 1) k (j 2 : Fin 128)) (weightAt (((cfg0.win 3).blk t).view.emb j) k) ?_ ?_ ?_
    · show win0_1.index t (0 : Fin 3) * 1 + 1 * 0 = win0_3.index t (0 : Fin 3) * 1 + 1 * (j 0).val
      omega
    · show win0_1.index t (1 : Fin 3) * 128 + 1 * k.val = k.val
      omega
    · show win0_1.index t (2 : Fin 3) * 128 + 1 * (j 2).val = win0_3.index t (2 : Fin 3) * 128 + 1 * (j 2).val
      omega
  · refine bias_block m c t (ix3 (0 : Fin 1) (0 : Fin 1) (j 2 : Fin 128)) (biasAt (((cfg0.win 3).blk t).view.emb j)) ?_ ?_
    · show win0_2.index t (0 : Fin 3) * 1 + 1 * 0 = win0_3.index t (0 : Fin 3) * 1 + 1 * (j 0).val
      omega
    · show win0_2.index t (2 : Fin 3) * 128 + 1 * (j 2).val = win0_3.index t (2 : Fin 3) * 128 + 1 * (j 2).val
      omega

/-! ## The output blocks tile the result array -/

/-- An entry of the result array lies in point `t`'s block iff each coordinate lies in the block's range on its axis. -/
theorem mem_block (t : Fin cfg0.N) (i : S8x32768x128.Idx) :
    i ∈ ((cfg0.win 3).blk t).view.set ↔ ∀ a : Fin 3, win0_3.index t a * S1x8192x128.size a ≤ (i a).val
      ∧ (i a).val < win0_3.index t a * S1x8192x128.size a + S1x8192x128.size a := by
  show i ∈ ((View.whole main_v1).slice (win0_3.rect t)).set ↔ _
  rw [View.set_slice_whole, Rect.mem_set_unit]
  exact Iff.rfl

/-- Every entry `(t, n, o)` of the result array lies in the block of the point with task `t` and row tile `n / 8192`,
    and that point writes its block back. -/
theorem covered (i : S8x32768x128.Idx) :
    ∃ t : Fin cfg0.N, (cfg0.win 3).flush t = true ∧ i ∈ ((cfg0.win 3).blk t).view.set := by
  have hi0 : (i 0).val < 8 := (i 0).isLt
  have hi1 : (i 1).val < 32768 := (i 1).isLt
  have hi2 : (i 2).val < 128 := (i 2).isLt
  obtain ⟨t, ht⟩ := block_onto ⟨(i 0).val, hi0⟩ ⟨(i 1).val / 8192, by omega⟩
  have q0 : win0_3.index t (0 : Fin 3) = (i 0).val := congrFun ht 0
  have q1 : win0_3.index t (1 : Fin 3) = (i 1).val / 8192 := congrFun ht 1
  have q2 : win0_3.index t (2 : Fin 3) = 0 := congrFun ht 2
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8192 ≤ (i 1).val ∧ (i 1).val < win0_3.index t (1 : Fin 3) * 8192 + 8192
    omega
  | ⟨2, _⟩ =>
    show win0_3.index t (2 : Fin 3) * 128 ≤ (i 2).val ∧ (i 2).val < win0_3.index t (2 : Fin 3) * 128 + 128
    omega

/-! ## The result array after the run, and the run -/

/-- THE RESULT ARRAY after the run is `affine` of the three argument arrays. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result array at `affine` of the
    arguments and the arguments unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.TaskAffine.Kernel

end
-- ==== Proof.lean ====
/-
  The kernel and its reference compute the same array on the extended reals.

  Both take 8 tasks, each with a data matrix `x[t]` (32768 × 128), a weight matrix `w[t]` (128 × 128) and a bias row
  `b[t]` (128 entries), and return for each task the matrix `x[t] · w[t]` with `b[t]` added to every row:

      out[t, r, o] = (∑ k < 128, x[t, r, k] · w[t, k, o]) + b[t, o]      (Proof/Spec.lean: `TaskAffine.affine`).

  The reference says so in four array operations: one batched contraction, the bias repeated over the rows, one
  entrywise sum (Proof/RefValue.lean). The kernel cuts each task's rows into four tiles of 8192 and, at each of its
  8 × 4 grid points, multiplies one tile of data with the task's weight matrix into a zero accumulator and adds the
  task's bias row; its two roundings to a shorter float format on the way into the product are the identity on the
  extended reals, and a product into a zero accumulator is the plain sum of products (Proof/Body.lean). The tiles'
  output blocks tile the result array, so the array ends holding `affine` everywhere (Proof/KernelValue.lean).
  Neither side regroups the sum over `k` or moves a factor across it, so the two results are one term and the
  equality holds for all extended-real inputs: the finiteness of the inputs is never used.

  The three frame claims are the programs' runs with the results dropped; the idealized kernel is the kernel's own
  text read on the extended reals (no rewrite was applied), so that claim is `True`.
-/
import proofs.«127060_j26414048870602_2_alg».proof.Defs
import proofs.«127060_j26414048870602_2_alg».proof.Proof.Gen.Kernel
import proofs.«127060_j26414048870602_2_alg».proof.Proof.Gen.Kernel.Skeleton
import proofs.«127060_j26414048870602_2_alg».proof.Proof.Gen.Kernel.Launch
import proofs.«127060_j26414048870602_2_alg».proof.Proof.Gen.Kernel.Points
import proofs.«127060_j26414048870602_2_alg».proof.Proof.Gen.Kernel.Frame
import proofs.«127060_j26414048870602_2_alg».proof.Proof.Gen.KernelIdeal
import proofs.«127060_j26414048870602_2_alg».proof.Proof.Gen.KernelIdeal.Skeleton
import proofs.«127060_j26414048870602_2_alg».proof.Proof.Gen.KernelIdeal.Launch
import proofs.«127060_j26414048870602_2_alg».proof.Proof.Gen.KernelIdeal.Points
import proofs.«127060_j26414048870602_2_alg».proof.Proof.Gen.KernelIdeal.Frame
import proofs.«127060_j26414048870602_2_alg».proof.Proof.Gen.ReferenceIdeal
import proofs.«127060_j26414048870602_2_alg».proof.Proof.Gen.Pre_finite_inputs
import proofs.«127060_j26414048870602_2_alg».proof.Proof.Gen.KernelIdeal.Value
import proofs.«127060_j26414048870602_2_alg».proof.Proof.Gen.ReferenceIdeal.Run
import proofs.«127060_j26414048870602_2_alg».proof.Proof.Gen.ReferenceIdeal.Read
import proofs.«127060_j26414048870602_2_alg».proof.Proof.Spec
import proofs.«127060_j26414048870602_2_alg».proof.Proof.RefValue
import proofs.«127060_j26414048870602_2_alg».proof.Proof.Body
import proofs.«127060_j26414048870602_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to show. -/
theorem preserves : Cert.preserves_Kernel_KernelIdeal := trivial

/-- From memories that agree on the three arguments, the kernel's result array and the reference's both end at
    `affine` of the arguments: the kernel's by its 32 blocks, the reference's by its four operations read at an entry. -/
theorem algebraic : Cert.algebraic_KernelIdeal_ReferenceIdeal := by
  intro m ρ m' ρ' _ hagree
  refine ⟨fun c => Cert.TaskAffine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.TaskAffine.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.TaskAffine.Reference.value_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
